-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x2048 : Shape := ⟨3, ![32, 512, 2048]⟩
abbrev S_ : Shape := ⟨0, ![]⟩

class Facts : Prop where
  bcast_S_S32x512x2048 : S_.BroadcastsInDim S32x512x2048 (![] : Fin 0 → Fin S32x512x2048.rank)
  reducesTo_S32x512x2048_S_d0_1_2 : S32x512x2048.ReducesTo [0, 1, 2] S_
  h_S_ : 0 < S_.numel

variable [Facts]

def fn {F : FTy → Type} [FloatOps F] (main_arg0 : FVec F S32x512x2048 .f32) (main_arg1 : IVec S32x512x2048 32) : IVec S_ 1 :=
  let main_v0 : FVec F S32x512x2048 .f32 := Host.absf main_arg0
  let main_cst : FVec F S_ .f32 := constant S_ .f32 0x7F800000#32
  let main_v1 : FVec F S32x512x2048 .f32 := broadcastInDim S32x512x2048 ![] bcast_S_S32x512x2048 main_cst
  let main_v2 : IVec S32x512x2048 1 := cmpf .olt main_v0 main_v1
  let main_c : IVec S_ 1 := constantI S_ 1 1#1
  let main_v3 : IVec S_ 1 := (fun x v => Host.reduce IntOp.andi x v reducesTo_S32x512x2048_S_d0_1_2 h_S_) main_v2 main_c
  main_v3
-- ==== Kernel.lean ====
abbrev S32x512x2048 : Shape := ⟨3, ![32, 512, 2048]⟩
abbrev S32x1x1 : Shape := ⟨3, ![32, 1, 1]⟩
abbrev S1x512x2048 : Shape := ⟨3, ![1, 512, 2048]⟩
abbrev S1x1x1 : Shape := ⟨3, ![1, 1, 1]⟩
abbrev S1x512 : Shape := ⟨2, ![1, 512]⟩
abbrev S1x512x1 : Shape := ⟨3, ![1, 512, 1]⟩
abbrev S1x1 : Shape := ⟨2, ![1, 1]⟩
abbrev S_ : Shape := ⟨0, ![]⟩

abbrev nBuf : Space → Nat
  | .hbm => 13
  | .vmem => 8
  | .smem => 0
  | _ => 0

abbrev bufTy : (tb : Table) → Fin (tcTables nBuf tb) → BufTy
  | .hbm, ⟨0, _⟩ => ⟨S32x512x2048, .f32⟩
  | .hbm, ⟨1, _⟩ => ⟨S32x512x2048, .i32⟩
  | .hbm, ⟨2, _⟩ => ⟨S32x1x1, .f32⟩
  | .hbm, ⟨3, _⟩ => ⟨S32x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .i32⟩
  | .local _ .vmem, ⟨3, _⟩ => ⟨S1x512x2048, .i32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S32x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  rotates_S1x512x2048_d2 : S1x512x2048.Rotates 2 none
  iota_S1x512x2048_d2_w32 : S1x512x2048.Iotas .tc 32 [2]
  rotates_S1x512x2048_d1 : S1x512x2048.Rotates 1 none
  iota_S1x512x2048_d1_w32 : S1x512x2048.Iotas .tc 32 [1]
  natLt_1_32 : 1 < 32
  reduces_S1x512x2048_S1x512 : S1x512x2048.Reduces [2] S1x512
  shapeCasts_S1x512_S1x512x1 : S1x512.ShapeCasts S1x512x1
  reduces_S1x512x1_S1x1 : S1x512x1.Reduces [1] S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S32x1x1_S_d0_1_2 : S32x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S32x512x2048.size a
  hwx0_0 : ∀ i : grid0.Coords, EltTy.bits .f32 = 32 ∨ (Rect.block (s := S32x512x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S32x512x2048.size a
  hwx0_1 : ∀ i : grid0.Coords, EltTy.bits .i32 = 32 ∨ (Rect.block (s := S32x512x2048) S1x512x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S32x1x1.size a
  hwx0_2 : ∀ i : grid0.Coords, EltTy.bits .f32 = 32 ∨ (Rect.block (s := S32x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S32x1x1.size a
  hwx0_3 : ∀ i : grid0.Coords, EltTy.bits .f32 = 32 ∨ (Rect.block (s := S32x1x1) S1x1x1.size (cc0_transform_3 i) (hinb0_3 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x2048 : Shape := ⟨3, ![32, 512, 2048]⟩
abbrev S512 : Shape := ⟨1, ![512]⟩
abbrev S_ : Shape := ⟨0, ![]⟩
abbrev S2048 : Shape := ⟨1, ![2048]⟩
abbrev S512x1 : Shape := ⟨2, ![512, 1]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S32x512x2048, .f32⟩
  | .hbm, ⟨1, _⟩ => ⟨S32x512x2048, .i32⟩
  | .hbm, ⟨2, _⟩ => ⟨S512, .i32⟩
  | .hbm, ⟨3, _⟩ => ⟨S_, .i32⟩
  | .hbm, ⟨4, _⟩ => ⟨S512, .i32⟩
  | .hbm, ⟨5, _⟩ => ⟨S512, .i1⟩
  | .hbm, ⟨6, _⟩ => ⟨S512, .i32⟩
  | .hbm, ⟨7, _⟩ => ⟨S_, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S2048, .i32⟩
  | .hbm, ⟨16, _⟩ => ⟨S_, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S32x512x2048, .f32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S2048x1, .i32⟩
  | .hbm, ⟨37, _⟩ => ⟨S32x512x2048, .f32⟩
  | .hbm, ⟨38, _⟩ => ⟨S_, .i32⟩
  | .hbm, ⟨39, _⟩ => ⟨S32x512x2048, .i32⟩
  | .hbm, ⟨40, _⟩ => ⟨S32x512x2048, .i1⟩
  | .hbm, ⟨41, _⟩ => ⟨S32x512x2048, .f32⟩
  | .hbm, ⟨42, _⟩ => ⟨S_, .f32⟩
  | .hbm, ⟨43, _⟩ => ⟨S_, .f32⟩
  | .hbm, ⟨44, _⟩ => ⟨S32x512x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S_, .f32⟩
  | _, _ => ⟨S32x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_c_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S_S2048 : S_.BroadcastsInDim S2048 (![] : Fin 0 → Fin S2048.rank)
  bcast_S512_S512x1_0 : S512.BroadcastsInDim S512x1 (![0] : Fin 1 → Fin S512x1.rank)
  bcast_S2048_S2048x1_0 : S2048.BroadcastsInDim S2048x1 (![0] : Fin 1 → Fin S2048x1.rank)
  bcast_S_S32x512x2048 : S_.BroadcastsInDim S32x512x2048 (![] : Fin 0 → Fin S32x512x2048.rank)
  reducesTo_S32x512x2048_S_d0_1_2 : S32x512x2048.ReducesTo [0, 1, 2] S_
  h_S_ : 0 < S_.numel
  gather_S32x512x2048_S512x1_S32x512x2048_02_1_n_n_1_1_3212048_wf : GatherDims.WF S32x512x2048 S512x1 S32x512x2048 [0, 2] [1] [] [1] [] 1 ![32, 1, 2048]
  gather_S32x512x2048_S2048x1_S32x512x2048_01_2_n_n_2_1_325121_wf : GatherDims.WF S32x512x2048 S2048x1 S32x512x2048 [0, 1] [2] [] [2] [] 1 ![32, 512, 1]

variable [Facts₀]

def gather_S32x512x2048_S512x1_S32x512x2048_02_1_n_n_1_1_3212048 : GatherDims S32x512x2048 S512x1 S32x512x2048 where
  offsetDims := [0, 2]
  collapsedSliceDims := [1]
  operandBatchingDims := []
  startIndicesBatchingDims := []
  startIndexMap := [1]
  indexVectorDim := 1
  sliceSizes := ![32, 1, 2048]
  wf := gather_S32x512x2048_S512x1_S32x512x2048_02_1_n_n_1_1_3212048_wf
def gather_S32x512x2048_S2048x1_S32x512x2048_01_2_n_n_2_1_325121 : GatherDims S32x512x2048 S2048x1 S32x512x2048 where
  offsetDims := [0, 1]
  collapsedSliceDims := [2]
  operandBatchingDims := []
  startIndicesBatchingDims := []
  startIndexMap := [2]
  indexVectorDim := 1
  sliceSizes := ![32, 512, 1]
  wf := gather_S32x512x2048_S2048x1_S32x512x2048_01_2_n_n_2_1_325121_wf

class Facts : Prop extends Facts₀ where

variable [Facts]
-- ==== Proof.LibTotalSum.lean ====
/-
  General facts, independent of any program: a finite sum over a three-axis index set as the triple sum over its
  coordinates (in any commutative monoid); the host's float sum over EVERY axis of an array, started from the zero
  word, as the total of the entries at the exact instance; and a select on "this coordinate is 0", the coordinate
  given as a 32-bit word, as the `if` on the coordinate.
-/
import Idealize.ShloMosaic.PureOps.Ideal
import Idealize.ShloMosaic.PureOps.Ideal.Laws
import Idealize.ShloMosaic.Lib.ValueIdx

noncomputable section

open scoped BigOperators

namespace Cert.LibTotalSum

open Idealize.ShloMosaic Idealize.ShloMosaic.ValueIdx

/-- A three-axis index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it, in any commutative monoid, is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over the one-element range is its one term. -/
theorem sum_fin_one {M : Type*} [AddCommMonoid M] (f : Fin 1 → M) : ∑ u : Fin 1, f u = f 0 := by
  simp

/-- The host's sum over EVERY axis of an array (a `stablehlo.reduce` with an add body into the scalar shape),
    started from the zero word, is at the exact instance the total of the entries as an extended real: the zero word
    is 0, and 0 + s = s. Whatever the array's rank and the order its axes are listed in. -/
theorem hostSumAll {s : Shape} {axes : List (Fin s.rank)} (x : FVec Ideal s .f32)
    (h' : s.ReducesTo axes (⟨0, ![]⟩ : Shape)) (hu : 0 < (⟨0, ![]⟩ : Shape).numel) :
    Host.reduceAdd x (constant (F := Ideal) (⟨0, ![]⟩ : Shape) .f32 0x00000000#32) h' hu = fun _ => ∑ i : s.Idx, x i := by
  funext j
  simp only [Host.reduceAdd, Ideal.hostReduceAdd_def]
  rw [Ideal.hostReduceAdd_total h' (fun b => b.elim0) x _ j]
  show Ideal.ofBits .f32 0x00000000#32 + _ = _
  rw [Ideal.ofBits_zero_f32, zero_add]

/-- A select on "coordinate `n` is 0", the coordinate read as a 32-bit word (`n` below 2³²), is the `if` on `n`. -/
theorem select_coord_zero {α : Type} (n : Nat) (hn : n < 2 ^ 32) (A B : α) :
    Scalar.select (IntOp.cmpi .eq (BitVec.ofNat 32 n) 0#32) A B = if n = 0 then A else B := by
  by_cases h : n = 0
  · subst h; rfl
  · rw [if_neg h]
    have hn' : n < 4294967296 := by simpa using hn
    have hb : (BitVec.ofNat 32 n == 0#32) = false := by
      rw [beq_eq_false_iff_ne]
      intro e
      have := congrArg BitVec.toNat e
      simp only [BitVec.toNat_ofNat, BitVec.toNat_zero, Nat.reducePow, Nat.mod_eq_of_lt hn'] at this
      exact h this
    simp [Scalar.select, IntOp.cmpi, hb]

end Cert.LibTotalSum

end
-- ==== Proof.Spec.lean ====
/-
  The mathematics both programs compute, stated once over the whole argument arrays.

  `x` is a real-valued array over (batch, row, column) = [32, 512, 2048] and `g` an integer array of the same shape.
  Every position (b, f, t) where `g` is nonzero contributes ONE entry of `x`: the entry at (b, f', t'), where
  f' = f except that row 0 reads row 1, and t' = t except that column 0 reads column 1. The result is the sum of
  the contributions divided by the number of nonzero positions when that number is positive, and 0 otherwise.

  Below: the remapped coordinates, the 0/1 weight of a position, the sums over one batch slab and over everything,
  the final guarded quotient, and the weight in the two spellings the programs use. (The facts about finite sums
  the bridge needs are general and live in LibTotalSum.lean.)
-/
import Idealize.ShloMosaic.PureOps.Ideal
import Idealize.ShloMosaic.PureOps.Ideal.Laws
import Idealize.ShloMosaic.Lib.ValueIdx
import proofs.«161716_j53077205844588_2_alg».proof.Proof.LibTotalSum

noncomputable section

open scoped BigOperators

namespace Cert.MaskedMean

open Idealize.ShloMosaic Idealize.ShloMosaic.ValueIdx

/-- The argument arrays' shape, one batch slab's, the per-batch partial sums', and the scalar's. -/
abbrev SArr : Shape := ⟨3, ![32, 512, 2048]⟩
abbrev SSlab : Shape := ⟨3, ![1, 512, 2048]⟩
abbrev SPart : Shape := ⟨3, ![32, 1, 1]⟩
abbrev SOne : Shape := ⟨0, ![]⟩

/-- Row 0 reads row 1; every other row reads itself. -/
def fixRow (f : Fin 512) : Fin 512 := if f.val = 0 then ⟨1, by decide⟩ else f
/-- Column 0 reads column 1; every other column reads itself. -/
def fixCol (t : Fin 2048) : Fin 2048 := if t.val = 0 then ⟨1, by decide⟩ else t

/-- The weight of a position: 1 where the integer word is nonzero, 0 where it is zero. -/
def mask (w : BitVec 32) : EReal := if w = 0#32 then 0 else 1

/-- The number of nonzero positions of batch slab `b`. -/
def slabCount (g : SArr.Idx → BitVec 32) (b : Fin 32) : EReal :=
  ∑ f : Fin 512, ∑ t : Fin 2048, mask (g (ix3 b f t))
/-- The sum of the contributions of batch slab `b`: position (f, t) contributes the entry at the remapped (f', t'). -/
def slabRetrieved (x : SArr.Idx → EReal) (g : SArr.Idx → BitVec 32) (b : Fin 32) : EReal :=
  ∑ f : Fin 512, ∑ t : Fin 2048, x (ix3 b (fixRow f) (fixCol t)) * mask (g (ix3 b f t))

/-- The same two sums of ONE slab given by itself, as a [1, 512, 2048] block. -/
def blockCount (g : SSlab.Idx → BitVec 32) : EReal :=
  ∑ f : Fin 512, ∑ t : Fin 2048, mask (g (ix3 0 f t))
def blockRetrieved (x : SSlab.Idx → EReal) (g : SSlab.Idx → BitVec 32) : EReal :=
  ∑ f : Fin 512, ∑ t : Fin 2048, x (ix3 0 (fixRow f) (fixCol t)) * mask (g (ix3 0 f t))

/-- The number of nonzero positions, and the sum of all contributions. -/
def count (g : SArr.Idx → BitVec 32) : EReal := ∑ b : Fin 32, slabCount g b
def retrieved (x : SArr.Idx → EReal) (g : SArr.Idx → BitVec 32) : EReal := ∑ b : Fin 32, slabRetrieved x g b

/-- The guarded quotient both programs end with: `r / c` where `c > 0`, else the zero word's value. -/
def ratio (r c : FVec Ideal SOne .f32) : FVec Ideal SOne .f32 :=
  select (cmpf (F := Ideal) .ogt c (constant (F := Ideal) SOne .f32 0x00000000#32)) (Host.divf r c)
    (constant (F := Ideal) SOne .f32 0x00000000#32)

/-- THE RESULT: the mean of the contributions over the nonzero positions, 0 when there is none. -/
def result (x : SArr.Idx → EReal) (g : SArr.Idx → BitVec 32) : FVec Ideal SOne .f32 :=
  ratio (fun _ => retrieved x g) (fun _ => count g)

/-! ## The weight, in the two spellings the programs use -/

/-- "nonzero" as a one-bit word, widened to 32 bits and read as a signed integer, is the weight. -/
theorem mask_of_signed (w : BitVec 32) :
    FloatOps.sitofp (F := Ideal) .f32 ((IntOp.cmpi .ne w 0#32).setWidth 32) = mask w := by
  by_cases h : w = 0#32
  · subst h; simp [mask, IntOp.cmpi, FloatOps.sitofp]
  · have hb : (w != 0#32) = true := by simpa [bne_iff_ne] using h
    simp [mask, IntOp.cmpi, FloatOps.sitofp, h, hb]

/-- "nonzero" as a one-bit word read as an unsigned integer is the weight. -/
theorem mask_of_unsigned (w : BitVec 32) :
    FloatOps.uitofp (F := Ideal) .f32 (IntOp.cmpi .ne w 0#32) = mask w := by
  by_cases h : w = 0#32
  · subst h; simp [mask, IntOp.cmpi, FloatOps.uitofp]
  · have hb : (w != 0#32) = true := by simpa [bne_iff_ne] using h
    simp [mask, IntOp.cmpi, FloatOps.uitofp, h, hb]

end Cert.MaskedMean

end
-- ==== Proof.RefValue.lean ====
/-
  The reference, read as mathematics. It builds two small index tables — row table [1, 1, 2, 3, …, 511] and column table
  [1, 1, 2, …, 2047]: "where the coordinate is 0 take 1, else the coordinate" —, gathers the rows of the real array at
  the first and then the columns at the second (each start index read as a signed integer, wrapped if negative — it
  never is — and clamped into range — it always is), multiplies by the 0/1 weight of the integer array, and sums
  everything; the count is the sum of the weights. So entry (b, f, t) of the gathered array is the entry at
  (b, f', t') with row 0 reading row 1 and column 0 reading column 1, and the two totals are the specification's
  `retrieved` and `count` once the sum over the three-axis index set is written as the triple sum.
-/
import proofs.«161716_j53077205844588_2_alg».proof.Proof.RefReadPatched
import proofs.«161716_j53077205844588_2_alg».proof.Proof.Spec

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.MaskedMean
open Cert.LibTotalSum

/-! ## The two index tables -/

/-- The row table's entry `f`, read signed and clamped into [0, 511], is `f` with row 0 sent to row 1
    (512 cases of 32-bit word arithmetic, each evaluated). -/
theorem rowIndex_fact : ∀ f : Fin 512,
    min (val_main_v15 (F := Ideal) (ix2 f (0 : Fin 1))).toInt.toNat (512 - 1) = (fixRow f).val := by
  decide +kernel

/-- The column table's entry `t`, read signed and clamped into [0, 2047], is `t` with column 0 sent to column 1. -/
theorem colIndex_fact : ∀ t : Fin 2048,
    min (val_main_v22 (F := Ideal) (ix2 t (0 : Fin 1))).toInt.toNat (2048 - 1) = (fixCol t).val := by
  decide +kernel

/-! ## The two gathers at an index -/

/-- Gathering ROWS of a [32, 512, 2048] array at a [512, 1] table: entry (b, f, t) is the array's entry
    (b, table[f] read signed and clamped into [0, 511], t). -/
theorem gatherRows_apply {α : Type} (x : S32x512x2048.Idx → α) (idx : IVec S512x1 32) (b : Fin 32) (f : Fin 512) (t : Fin 2048) :
    Host.gather gather_S32x512x2048_S512x1_S32x512x2048_02_1_n_n_1_1_3212048 x idx (ix3 b f t)
      = x (ix3 b ⟨min (idx (ix2 f (0 : Fin 1))).toInt.toNat (512 - 1), by omega⟩ t) := by
  unfold Host.gather
  refine congrArg x (funext fun a => Fin.ext ?_)
  match a with
  | ⟨0, _⟩ =>
    show gather_S32x512x2048_S512x1_S32x512x2048_02_1_n_n_1_1_3212048.start (ix3 b f t) idx 0 + gather_S32x512x2048_S512x1_S32x512x2048_02_1_n_n_1_1_3212048.batchCoord (ix3 b f t) 0 + gather_S32x512x2048_S512x1_S32x512x2048_02_1_n_n_1_1_3212048.offCoord (ix3 b f t) 0 = b.val
    rw [GatherDims.batchCoord_eq_zero _ _ _ List.not_mem_nil]
    unfold GatherDims.start GatherDims.offCoord
    rw [dif_neg (by decide), dif_pos (by decide)]
    simp only [Nat.zero_add]
    rfl
  | ⟨2, _⟩ =>
    show gather_S32x512x2048_S512x1_S32x512x2048_02_1_n_n_1_1_3212048.start (ix3 b f t) idx 2 + gather_S32x512x2048_S512x1_S32x512x2048_02_1_n_n_1_1_3212048.batchCoord (ix3 b f t) 2 + gather_S32x512x2048_S512x1_S32x512x2048_02_1_n_n_1_1_3212048.offCoord (ix3 b f t) 2 = t.val
    rw [GatherDims.batchCoord_eq_zero _ _ _ List.not_mem_nil]
    unfold GatherDims.start GatherDims.offCoord
    rw [dif_neg (by decide), dif_pos (by decide)]
    simp only [Nat.zero_add]
    rfl
  | ⟨1, _⟩ =>
    show gather_S32x512x2048_S512x1_S32x512x2048_02_1_n_n_1_1_3212048.start (ix3 b f t) idx 1 + gather_S32x512x2048_S512x1_S32x512x2048_02_1_n_n_1_1_3212048.batchCoord (ix3 b f t) 1 + gather_S32x512x2048_S512x1_S32x512x2048_02_1_n_n_1_1_3212048.offCoord (ix3 b f t) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S32x512x2048_S512x1_S32x512x2048_02_1_n_n_1_1_3212048.startIndexMap from List.mem_singleton.mpr rfl)]
    have hsi : gather_S32x512x2048_S512x1_S32x512x2048_02_1_n_n_1_1_3212048.siIdx (ix3 b f t) ⟨List.idxOf (1 : Fin 3) gather_S32x512x2048_S512x1_S32x512x2048_02_1_n_n_1_1_3212048.startIndexMap,
        List.idxOf_lt_length_iff.2 (List.mem_singleton.mpr rfl)⟩ = ix2 f (0 : Fin 1) := by
      funext k; refine Fin.ext ?_
      match k with
      | ⟨0, _⟩ => rfl
      | ⟨1, _⟩ => rfl
    rw [hsi]
    rfl

/-- Gathering COLUMNS at a [2048, 1] table: entry (b, f, t) is the array's entry (b, f, table[t] clamped into [0, 2047]). -/
theorem gatherCols_apply {α : Type} (x : S32x512x2048.Idx → α) (idx : IVec S2048x1 32) (b : Fin 32) (f : Fin 512) (t : Fin 2048) :
    Host.gather gather_S32x512x2048_S2048x1_S32x512x2048_01_2_n_n_2_1_325121 x idx (ix3 b f t)
      = x (ix3 b f ⟨min (idx (ix2 t (0 : Fin 1))).toInt.toNat (2048 - 1), by omega⟩) := by
  unfold Host.gather
  refine congrArg x (funext fun a => Fin.ext ?_)
  match a with
  | ⟨0, _⟩ =>
    show gather_S32x512x2048_S2048x1_S32x512x2048_01_2_n_n_2_1_325121.start (ix3 b f t) idx 0 + gather_S32x512x2048_S2048x1_S32x512x2048_01_2_n_n_2_1_325121.batchCoord (ix3 b f t) 0 + gather_S32x512x2048_S2048x1_S32x512x2048_01_2_n_n_2_1_325121.offCoord (ix3 b f t) 0 = b.val
    rw [GatherDims.batchCoord_eq_zero _ _ _ List.not_mem_nil]
    unfold GatherDims.start GatherDims.offCoord
    rw [dif_neg (by decide), dif_pos (by decide)]
    simp only [Nat.zero_add]
    rfl
  | ⟨1, _⟩ =>
    show gather_S32x512x2048_S2048x1_S32x512x2048_01_2_n_n_2_1_325121.start (ix3 b f t) idx 1 + gather_S32x512x2048_S2048x1_S32x512x2048_01_2_n_n_2_1_325121.batchCoord (ix3 b f t) 1 + gather_S32x512x2048_S2048x1_S32x512x2048_01_2_n_n_2_1_325121.offCoord (ix3 b f t) 1 = f.val
    rw [GatherDims.batchCoord_eq_zero _ _ _ List.not_mem_nil]
    unfold GatherDims.start GatherDims.offCoord
    rw [dif_neg (by decide), dif_pos (by decide)]
    simp only [Nat.zero_add]
    rfl
  | ⟨2, _⟩ =>
    show gather_S32x512x2048_S2048x1_S32x512x2048_01_2_n_n_2_1_325121.start (ix3 b f t) idx 2 + gather_S32x512x2048_S2048x1_S32x512x2048_01_2_n_n_2_1_325121.batchCoord (ix3 b f t) 2 + gather_S32x512x2048_S2048x1_S32x512x2048_01_2_n_n_2_1_325121.offCoord (ix3 b f t) 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S32x512x2048_S2048x1_S32x512x2048_01_2_n_n_2_1_325121.startIndexMap from List.mem_singleton.mpr rfl)]
    have hsi : gather_S32x512x2048_S2048x1_S32x512x2048_01_2_n_n_2_1_325121.siIdx (ix3 b f t) ⟨List.idxOf (2 : Fin 3) gather_S32x512x2048_S2048x1_S32x512x2048_01_2_n_n_2_1_325121.startIndexMap,
        List.idxOf_lt_length_iff.2 (List.mem_singleton.mpr rfl)⟩ = ix2 t (0 : Fin 1) := by
      funext k; refine Fin.ext ?_
      match k with
      | ⟨0, _⟩ => rfl
      | ⟨1, _⟩ => rfl
    rw [hsi]
    rfl

/-! ## The reference's stages at an index -/

/-- The gathered array: entry (b, f, t) is the real array's entry at the remapped (b, f', t'). -/
theorem gathered_apply (x0 : S32x512x2048.Idx → EReal) (b : Fin 32) (f : Fin 512) (t : Fin 2048) :
    val_main_v23 (F := Ideal) x0 (ix3 b f t) = x0 (ix3 b (fixRow f) (fixCol t)) := by
  unfold val_main_v23 val_main_v16
  rw [gatherCols_apply, gatherRows_apply]
  refine congrArg x0 (funext fun a => Fin.ext ?_)
  match a with
  | ⟨0, _⟩ => rfl
  | ⟨1, _⟩ => exact rowIndex_fact f
  | ⟨2, _⟩ => exact colIndex_fact t

/-- The weight array: 1 where the integer word is nonzero, 0 elsewhere. -/
theorem weight_apply (x1 : S32x512x2048.Idx → BitVec 32) (j : S32x512x2048.Idx) :
    val_main_v26 (F := Ideal) x1 j = mask (x1 j) :=
  mask_of_unsigned (x1 j)

/-- The count: the sum of the weights over every position. -/
theorem count_eq (x1 : S32x512x2048.Idx → BitVec 32) : val_main_v27 (F := Ideal) x1 = fun _ => MaskedMean.count x1 := by
  funext i
  rw [val_main_v27_apply]
  show Ideal.ofBits .f32 0x00000000#32 + _ = _
  rw [Ideal.ofBits_zero_f32, zero_add, sum_idx3]
  unfold MaskedMean.count slabCount
  exact Finset.sum_congr rfl fun b _ => Finset.sum_congr rfl fun f _ => Finset.sum_congr rfl fun t _ => weight_apply x1 _

/-- The retrieved sum: every position's remapped entry times its weight, summed. -/
theorem retrieved_eq (x0 : S32x512x2048.Idx → EReal) (x1 : S32x512x2048.Idx → BitVec 32) :
    val_main_v29 (F := Ideal) x0 x1 = fun _ => retrieved x0 x1 := by
  funext i
  rw [val_main_v29_apply]
  show Ideal.ofBits .f32 0x00000000#32 + _ = _
  rw [Ideal.ofBits_zero_f32, zero_add, sum_idx3]
  unfold retrieved slabRetrieved
  refine Finset.sum_congr rfl fun b _ => Finset.sum_congr rfl fun f _ => Finset.sum_congr rfl fun t _ => ?_
  show val_main_v23 (F := Ideal) x0 (ix3 b f t) * val_main_v26 (F := Ideal) x1 (ix3 b f t) = _
  rw [gathered_apply, weight_apply]

/-- THE REFERENCE'S RESULT is the specification's: the guarded quotient of the two totals. -/
theorem result_eq (x0 : S32x512x2048.Idx → EReal) (x1 : S32x512x2048.Idx → BitVec 32) :
    val_main_v32 (F := Ideal) x0 x1 = result x0 x1 := by
  unfold val_main_v32 val_main_v31 val_main_v30 val_main_cst_9 val_main_cst_10 result ratio
  rw [count_eq, retrieved_eq]

end Cert.ReferenceIdeal.RefValue

end
-- ==== Proof.KernelBlock.lean ====
/-
  One grid point of the kernel, as mathematics. The body sees ONE batch slab of each argument, as [1, 512, 2048] blocks
  `x` (reals) and `g` (integers), and stores two numbers:

    the count      ∑ f, ∑ t, weight (g (0, f, t)),                        weight = 1 where the word is nonzero, else 0
    the retrieved  ∑ f, ∑ t, x (0, f', t') · weight (g (0, f, t)),        f' = f but row 0 reads row 1, t' likewise

  The remapped slab is built by two rotations: rotating the columns by 2047 = −1 (mod 2048) puts column t + 1 at
  column t, and the select on "column = 0" keeps that only at column 0, so column 0 reads column 1; the same with the
  rows (511 = −1 mod 512). Each number is a sum over the columns of every row followed by a sum over the rows, with
  unit axes added in between; at the exact instance the two stages are the double sum.
-/
import proofs.«161716_j53077205844588_2_alg».proof.Proof.Gen.KernelIdeal.Skeleton
import proofs.«161716_j53077205844588_2_alg».proof.Proof.Spec
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.MaskedMean Cert.LibTotalSum

variable {F : FTy → Type} [FloatOps F]

/-! ## The body's pieces, named -/

/-- Column 0 reads column 1: the slab rotated by −1 along the columns, kept at column 0 only. -/
def colFixed (v0 : FVec F S1x512x2048 .f32) : FVec F S1x512x2048 .f32 :=
  select (cmpi .eq (iota .tc S1x512x2048 32 [2] iota_S1x512x2048_d2_w32) (broadcast S1x512x2048 0#32))
    (dynamicRotate 2 2047#32 none v0 rotates_S1x512x2048_d2) v0

/-- Row 0 reads row 1, of an already column-remapped slab. -/
def rowFixed (v6 : FVec F S1x512x2048 .f32) : FVec F S1x512x2048 .f32 :=
  select (cmpi .eq (iota .tc S1x512x2048 32 [1] iota_S1x512x2048_d1_w32) (broadcast S1x512x2048 0#32))
    (dynamicRotate 1 511#32 none v6 rotates_S1x512x2048_d1) v6

/-- A slab summed over its columns, then over its rows, stored as a [1, 1, 1] block. -/
def twoStage (v : FVec F S1x512x2048 .f32) : FVec F S1x1x1 .f32 :=
  shapeCast S1x1x1 (multiReduction .add [1] S1x1
    (shapeCast S1x512x1 (multiReduction .add [2] S1x512 v 0x00000000#32 reduces_S1x512x2048_S1x512 (.inl rfl) rfl)
      shapeCasts_S1x512_S1x512x1) 0x00000000#32 reduces_S1x512x1_S1x1 (.inl rfl) rfl) shapeCasts_S1x1_S1x1x1

/-- The stored count is the two-stage sum of the weights … -/
theorem pay2_split (v1 : Vec F S1x512x2048 .i32) : k0_pay2 v1 = twoStage (k0_pay1 v1) := rfl
/-- … and the stored retrieved sum the two-stage sum of the remapped slab times the weights. -/
theorem pay3_split (v0 : Vec F S1x512x2048 .f32) (v1 : Vec F S1x512x2048 .i32) :
    k0_pay3 v0 v1 = twoStage (mulf (rowFixed (colFixed v0)) (k0_pay1 v1)) := rfl

/-! ## Each piece at an index, at the exact instance -/

/-- The weight at a position. -/
theorem weight_apply (v1 : Vec Ideal S1x512x2048 .i32) (i : S1x512x2048.Idx) :
    k0_pay1 (F := Ideal) v1 i = mask (v1 i) :=
  mask_of_signed (v1 i)

/-- Column 0 reads column 1, every other column itself. -/
theorem colFixed_apply (v0 : FVec Ideal S1x512x2048 .f32) (f : Fin 512) (t : Fin 2048) :
    colFixed v0 (ix3 0 f t) = v0 (ix3 0 f (fixCol t)) := by
  show Scalar.select (IntOp.cmpi .eq (iota .tc S1x512x2048 32 [2] iota_S1x512x2048_d2_w32 (ix3 0 f t)) 0#32)
    (dynamicRotate 2 2047#32 none v0 rotates_S1x512x2048_d2 (ix3 0 f t)) (v0 (ix3 0 f t)) = _
  rw [iota_single_apply]
  show Scalar.select (IntOp.cmpi .eq (BitVec.ofNat 32 t.val) 0#32) _ _ = _
  rw [select_coord_zero t.val (by have := t.isLt; omega)]
  unfold fixCol
  by_cases ht : t.val = 0
  · rw [if_pos ht, if_pos ht]
    unfold dynamicRotate
    refine congrArg v0 (funext fun a => Fin.ext ?_)
    match a with
    | ⟨0, _⟩ => rfl
    | ⟨1, _⟩ => rfl
    | ⟨2, _⟩ =>
      show (t.val + 2048 - 2047 % 2048) % 2048 = 1
      rw [ht]
  · rw [if_neg ht, if_neg ht]

/-- Row 0 reads row 1, every other row itself. -/
theorem rowFixed_apply (v6 : FVec Ideal S1x512x2048 .f32) (f : Fin 512) (t : Fin 2048) :
    rowFixed v6 (ix3 0 f t) = v6 (ix3 0 (fixRow f) t) := by
  show Scalar.select (IntOp.cmpi .eq (iota .tc S1x512x2048 32 [1] iota_S1x512x2048_d1_w32 (ix3 0 f t)) 0#32)
    (dynamicRotate 1 511#32 none v6 rotates_S1x512x2048_d1 (ix3 0 f t)) (v6 (ix3 0 f t)) = _
  rw [iota_single_apply]
  show Scalar.select (IntOp.cmpi .eq (BitVec.ofNat 32 f.val) 0#32) _ _ = _
  rw [select_coord_zero f.val (by have := f.isLt; omega)]
  unfold fixRow
  by_cases hf : f.val = 0
  · rw [if_pos hf, if_pos hf]
    unfold dynamicRotate
    refine congrArg v6 (funext fun a => Fin.ext ?_)
    match a with
    | ⟨0, _⟩ => rfl
    | ⟨1, _⟩ =>
      show (f.val + 512 - 511 % 512) % 512 = 1
      rw [hf]
    | ⟨2, _⟩ => rfl
  · rw [if_neg hf, if_neg hf]

/-- The two stages are the double sum over rows and columns. -/
theorem twoStage_apply (v : FVec Ideal S1x512x2048 .f32) (y : S1x1x1.Idx) :
    twoStage (F := Ideal) v y = ∑ f : Fin 512, ∑ t : Fin 2048, v (ix3 0 f t) := by
  obtain ⟨a, b, c, rfl⟩ : ∃ (a : Fin 1) (b : Fin 1) (c : Fin 1), y = ix3 a b c := ⟨y 0, y 1, y 2, eq_ix3 y⟩
  unfold twoStage
  refine (shapeCast_apply _ shapeCasts_S1x1_S1x1x1 (ix3 a b c) (ix2 (0 : Fin 1) (0 : Fin 1)) ?_).trans ?_
  · rw [Shape.rowMajor_val_two, Shape.rowMajor_val_three]
    show 0 * 1 + 0 = (a.val * 1 + b.val) * 1 + c.val
    have := a.isLt; have := b.isLt; have := c.isLt; omega
  refine (Ideal.multiReduction_add_single _ 0x00000000#32 reduces_S1x512x1_S1x1 (.inl rfl) rfl _).trans ?_
  refine Finset.sum_congr rfl fun f _ => ?_
  refine (shapeCast_apply _ shapeCasts_S1x512_S1x512x1 _ (ix2 (0 : Fin 1) (f : Fin 512)) ?_).trans ?_
  · rw [Shape.rowMajor_val_two, Shape.rowMajor_val_three]
    show 0 * 512 + f.val = (0 * 512 + f.val) * 1 + 0
    omega
  refine (Ideal.multiReduction_add_single _ 0x00000000#32 reduces_S1x512x2048_S1x512 (.inl rfl) rfl _).trans ?_
  refine Finset.sum_congr rfl fun t _ => ?_
  refine congrArg v (funext fun d => Fin.ext ?_)
  match d with
  | ⟨0, _⟩ => rfl
  | ⟨1, _⟩ => rfl
  | ⟨2, _⟩ => rfl

/-! ## The two stored numbers -/

/-- THE COUNT a grid point stores: the number of nonzero words of its slab. -/
theorem count_apply (v1 : Vec Ideal S1x512x2048 .i32) (y : S1x1x1.Idx) :
    k0_pay2 (F := Ideal) v1 y = blockCount v1 := by
  rw [pay2_split, twoStage_apply]
  unfold blockCount
  exact Finset.sum_congr rfl fun f _ => Finset.sum_congr rfl fun t _ => weight_apply v1 _

/-- THE RETRIEVED SUM a grid point stores: every nonzero position's remapped entry, summed. -/
theorem retrieved_apply (v0 : Vec Ideal S1x512x2048 .f32) (v1 : Vec Ideal S1x512x2048 .i32) (y : S1x1x1.Idx) :
    k0_pay3 (F := Ideal) v0 v1 y = blockRetrieved v0 v1 := by
  rw [pay3_split, twoStage_apply]
  unfold blockRetrieved
  refine Finset.sum_congr rfl fun f _ => Finset.sum_congr rfl fun t _ => ?_
  show rowFixed (colFixed v0) (ix3 0 f t) * k0_pay1 (F := Ideal) v1 (ix3 0 f t) = _
  rw [rowFixed_apply, colFixed_apply, weight_apply]

end Cert.KernelIdeal.Block

end
-- ==== Proof.KernelArrays.lean ====
/-
  The kernel's two output arrays after the whole grid. Grid point `t` (one per batch slab, 32 of them) sees slab `t` of
  each argument and writes entry (t, 0, 0) of each [32, 1, 1] output: the slab's retrieved sum and the slab's count.
  The 32 one-entry blocks tile each output, so afterwards entry (b, 0, 0) holds slab b's number — a function of the
  argument arrays alone.
-/
import proofs.«161716_j53077205844588_2_alg».proof.Proof.Gen.KernelIdeal.Frame
import proofs.«161716_j53077205844588_2_alg».proof.Proof.KernelBlock
import Idealize.ShloMosaic.Lib.Pipeline.Value

noncomputable section

open scoped BigOperators

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block Idealize.ShloMosaic.ValueIdx Cert.MaskedMean

variable (m : (ℓ : Loc nD τ sig) → Buf (Elt Ideal) ℓ) (ρ : Dev nD → PrngReg)

theorem hz3 : (![0, 0, 0] : Fin 3 → Nat) = fun _ => 0 := funext fun a => by fin_cases a <;> rfl

/-- The per-slab retrieved sums as a [32, 1, 1] array of the argument arrays: entry (b, ·, ·) is slab b's. -/
def partRetrieved (x : S32x512x2048.Idx → EReal) (g : S32x512x2048.Idx → BitVec 32) : S32x1x1.Idx → EReal :=
  fun i => slabRetrieved x g ⟨(i 0).val, (i 0).isLt⟩
/-- The per-slab counts as a [32, 1, 1] array. -/
def partCount (g : S32x512x2048.Idx → BitVec 32) : S32x1x1.Idx → EReal :=
  fun i => slabCount g ⟨(i 0).val, (i 0).isLt⟩

/-- The printed index maps, decided over the grid: every window's block at point `t` is block (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The real argument's block at point `t` is slab `t`: its entry (0, f, u) is the array's entry (t, f, u). -/
theorem iblk0_apply (c : Dev nD) (t : Fin cfg0.N) (f : Fin 512) (u : Fin 2048) (b : Fin 32) (hb : b.val = t.val) :
    (iblk m c 0 t : Vec Ideal S1x512x2048 .f32) (ix3 0 f u) = (V m c main_arg0 : S32x512x2048.Idx → EReal) (ix3 b f u) := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = b.val; rw [e0, hb]; omega
  | ⟨1, _⟩ => show win0_0.index t (1 : Fin 3) * 512 + 1 * f.val = f.val; rw [e1]; omega
  | ⟨2, _⟩ => show win0_0.index t (2 : Fin 3) * 2048 + 1 * u.val = u.val; rw [e2]; omega

/-- The integer argument's block at point `t` is slab `t` likewise. -/
theorem iblk1_apply (c : Dev nD) (t : Fin cfg0.N) (f : Fin 512) (u : Fin 2048) (b : Fin 32) (hb : b.val = t.val) :
    (iblk m c 1 t : Vec Ideal S1x512x2048 .i32) (ix3 0 f u) = (V m c main_arg1 : S32x512x2048.Idx → BitVec 32) (ix3 b f u) := by
  obtain ⟨-, -, -, e0, e1, e2, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * 0 = b.val; rw [e0, hb]; omega
  | ⟨1, _⟩ => show win0_1.index t (1 : Fin 3) * 512 + 1 * f.val = f.val; rw [e1]; omega
  | ⟨2, _⟩ => show win0_1.index t (2 : Fin 3) * 2048 + 1 * u.val = u.val; rw [e2]; omega

/-- The block sums of point `t`'s two blocks are slab `t`'s sums. -/
theorem blockRetrieved_iblk (c : Dev nD) (t : Fin cfg0.N) (b : Fin 32) (hb : b.val = t.val) :
    blockRetrieved (iblk m c 0 t : Vec Ideal S1x512x2048 .f32) (iblk m c 1 t : Vec Ideal S1x512x2048 .i32)
      = slabRetrieved (V m c main_arg0) (V m c main_arg1) b := by
  unfold blockRetrieved slabRetrieved
  refine Finset.sum_congr rfl fun f _ => Finset.sum_congr rfl fun u _ => ?_
  rw [iblk0_apply m c t (fixRow f) (fixCol u) b hb, iblk1_apply m c t f u b hb]
theorem blockCount_iblk (c : Dev nD) (t : Fin cfg0.N) (b : Fin 32) (hb : b.val = t.val) :
    blockCount (iblk m c 1 t : Vec Ideal S1x512x2048 .i32) = slabCount (V m c main_arg1) b := by
  unfold blockCount slabCount
  refine Finset.sum_congr rfl fun f _ => Finset.sum_congr rfl fun u _ => ?_
  rw [iblk1_apply m c t f u b hb]

/-- WHAT POINT `t` WRITES BACK to the first output is block `t` of the per-slab retrieved sums. -/
theorem flushed2_eq (c : Dev nD) (t : Fin cfg0.N) :
    (dats m 0 c).flushed 2 t
      = ((cfg0.win 2).blk t).view.read (Elt Ideal) (partRetrieved (V m c main_arg0) (V m c main_arg1)) := by
  show (cfg0.win 2).cut (grid0.coords t) ((dats m 0 c).after 2 t) = _
  rw [after0_2]
  unfold out0_2
  rw [View.canon_unit_zero hz3]
  simp only [View.ld_unit_zero (S := S1x512x2048) hz3]
  obtain ⟨-, -, -, -, -, -, e0, -⟩ := idx_facts t
  funext j
  show k0_pay3 (F := Ideal) (iblk m c 0 t) (iblk m c 1 t) j
    = partRetrieved (V m c main_arg0) (V m c main_arg1) (((cfg0.win 2).blk t).view.emb j)
  refine (retrieved_apply (iblk m c 0 t) (iblk m c 1 t) j).trans ?_
  unfold partRetrieved
  refine blockRetrieved_iblk m c t _ ?_
  show win0_2.index t (0 : Fin 3) * 1 + 1 * (j 0).val = t.val
  have hj : (j 0).val < 1 := (j 0).isLt
  rw [e0]; omega

/-- WHAT POINT `t` WRITES BACK to the second output is block `t` of the per-slab counts. -/
theorem flushed3_eq (c : Dev nD) (t : Fin cfg0.N) :
    (dats m 0 c).flushed 3 t = ((cfg0.win 3).blk t).view.read (Elt Ideal) (partCount (V m c main_arg1)) := by
  show (cfg0.win 3).cut (grid0.coords t) ((dats m 0 c).after 3 t) = _
  rw [after0_3]
  unfold out0_3
  rw [View.canon_unit_zero hz3]
  simp only [View.ld_unit_zero (S := S1x512x2048) hz3]
  obtain ⟨-, -, -, -, -, -, -, -, -, e0, -⟩ := idx_facts t
  funext j
  show k0_pay2 (F := Ideal) (iblk m c 1 t) j = partCount (V m c main_arg1) (((cfg0.win 3).blk t).view.emb j)
  refine (count_apply (iblk m c 1 t) j).trans ?_
  unfold partCount
  refine blockCount_iblk m c t _ ?_
  show win0_3.index t (0 : Fin 3) * 1 + 1 * (j 0).val = t.val
  have hj : (j 0).val < 1 := (j 0).isLt
  rw [e0]; omega

/-- An entry of an output is in point `t`'s block iff each coordinate is in the block's range on its axis. -/
theorem mem_blk2 (t : Fin cfg0.N) (i : S32x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0_0).slice (win0_2.rect t)).set ↔ _
  rw [View.set_slice_whole, Rect.mem_set_unit]
  exact Iff.rfl
theorem mem_blk3 (t : Fin cfg0.N) (i : S32x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v0_1).slice (win0_3.rect t)).set ↔ _
  rw [View.set_slice_whole, Rect.mem_set_unit]
  exact Iff.rfl

/-- Entry (b, 0, 0) is point `b`'s block: the 32 blocks tile each output. -/
theorem cover2 (i : S32x1x1.Idx) : ∃ t : Fin cfg0.N, (cfg0.win 2).flush t = true ∧ i ∈ ((cfg0.win 2).blk t).view.set := by
  have h0 : (i 0).val < 32 := (i 0).isLt
  have h1 : (i 1).val < 1 := (i 1).isLt
  have h2 : (i 2).val < 1 := (i 2).isLt
  have ht : (i 0).val < cfg0.N := by rw [show cfg0.N = 32 from N_0]; exact h0
  obtain ⟨-, -, -, -, -, -, e0, e1, e2, -⟩ := idx_facts ⟨(i 0).val, ht⟩
  have e0' : win0_2.index ⟨(i 0).val, ht⟩ (0 : Fin 3) = (i 0).val := e0
  refine ⟨⟨(i 0).val, ht⟩, flush0_2 _, ?_⟩
  rw [mem_blk2]
  intro a
  match a with
  | ⟨0, _⟩ =>
    show win0_2.index ⟨(i 0).val, ht⟩ (0 : Fin 3) * 1 ≤ (i 0).val ∧ (i 0).val < win0_2.index ⟨(i 0).val, ht⟩ (0 : Fin 3) * 1 + 1
    rw [e0']; omega
  | ⟨1, _⟩ =>
    show win0_2.index ⟨(i 0).val, ht⟩ (1 : Fin 3) * 1 ≤ (i 1).val ∧ (i 1).val < win0_2.index ⟨(i 0).val, ht⟩ (1 : Fin 3) * 1 + 1
    rw [e1]; omega
  | ⟨2, _⟩ =>
    show win0_2.index ⟨(i 0).val, ht⟩ (2 : Fin 3) * 1 ≤ (i 2).val ∧ (i 2).val < win0_2.index ⟨(i 0).val, ht⟩ (2 : Fin 3) * 1 + 1
    rw [e2]; omega
theorem cover3 (i : S32x1x1.Idx) : ∃ t : Fin cfg0.N, (cfg0.win 3).flush t = true ∧ i ∈ ((cfg0.win 3).blk t).view.set := by
  have h0 : (i 0).val < 32 := (i 0).isLt
  have h1 : (i 1).val < 1 := (i 1).isLt
  have h2 : (i 2).val < 1 := (i 2).isLt
  have ht : (i 0).val < cfg0.N := by rw [show cfg0.N = 32 from N_0]; exact h0
  obtain ⟨-, -, -, -, -, -, -, -, -, e0, e1, e2⟩ := idx_facts ⟨(i 0).val, ht⟩
  have e0' : win0_3.index ⟨(i 0).val, ht⟩ (0 : Fin 3) = (i 0).val := e0
  refine ⟨⟨(i 0).val, ht⟩, flush0_3 _, ?_⟩
  rw [mem_blk3]
  intro a
  match a with
  | ⟨0, _⟩ =>
    show win0_3.index ⟨(i 0).val, ht⟩ (0 : Fin 3) * 1 ≤ (i 0).val ∧ (i 0).val < win0_3.index ⟨(i 0).val, ht⟩ (0 : Fin 3) * 1 + 1
    rw [e0']; omega
  | ⟨1, _⟩ =>
    show win0_3.index ⟨(i 0).val, ht⟩ (1 : Fin 3) * 1 ≤ (i 1).val ∧ (i 1).val < win0_3.index ⟨(i 0).val, ht⟩ (1 : Fin 3) * 1 + 1
    rw [e1]; omega
  | ⟨2, _⟩ =>
    show win0_3.index ⟨(i 0).val, ht⟩ (2 : Fin 3) * 1 ≤ (i 2).val ∧ (i 2).val < win0_3.index ⟨(i 0).val, ht⟩ (2 : Fin 3) * 1 + 1
    rw [e2]; omega

/-- THE FIRST OUTPUT after the run: the per-slab retrieved sums of the argument arrays. -/
theorem final2 (c : Dev nD) :
    (dats m 0 c).arrAt 2 cfg0.N = partRetrieved (V m c main_arg0) (V m c main_arg1) :=
  (dats m 0 c).arrAt_eq_of_cover 2 _ (fun t _ => flushed2_eq m c t) cover2
/-- THE SECOND OUTPUT after the run: the per-slab counts. -/
theorem final3 (c : Dev nD) : (dats m 0 c).arrAt 3 cfg0.N = partCount (V m c main_arg1) :=
  (dats m 0 c).arrAt_eq_of_cover 3 _ (fun t _ => flushed3_eq m c t) cover3

end Cert.KernelIdeal.Arrays

end
-- ==== Proof.KernelRun.lean ====
/-
  The kernel's whole program, read. After the grid the two [32, 1, 1] outputs hold the per-slab retrieved sums and
  counts; the host lines that follow sum each over its 32 entries (from the zero word) and take the guarded quotient.
  A sum over the 32 × 1 × 1 entries is the sum over the 32 slabs, so the program's result is the specification's:
  the total of the contributions over the total count, 0 when the count is not positive.
-/
import proofs.«161716_j53077205844588_2_alg».proof.Proof.KernelArrays
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Arrays Idealize.ShloMosaic.ValueIdx Cert.MaskedMean Cert.LibTotalSum

variable (m : (ℓ : Loc nD τ sig) → Buf (Elt Ideal) ℓ) (ρ : Dev nD → PrngReg)

/-- A sum over the [32, 1, 1] index set of a function of the first coordinate is the sum over the 32 slabs. -/
theorem sum_parts (h : Fin 32 → EReal) : ∑ i : S32x1x1.Idx, h ⟨(i 0).val, (i 0).isLt⟩ = ∑ b : Fin 32, h b := by
  rw [sum_idx3]
  refine Finset.sum_congr rfl fun b _ => ?_
  rw [sum_fin_one, sum_fin_one]

/-- The host's total of the per-slab retrieved sums is the retrieved sum … -/
theorem total_retrieved (x : S32x512x2048.Idx → EReal) (g : S32x512x2048.Idx → BitVec 32) :
    Host.reduceAdd (partRetrieved x g) (constant (F := Ideal) S_ .f32 0x00000000#32) reducesTo_S32x1x1_S_d0_1_2 h_S_
      = fun _ => retrieved x g := by
  rw [hostSumAll]
  funext _
  exact sum_parts (slabRetrieved x g)

/-- … and the total of the per-slab counts is the count. -/
theorem total_count (g : S32x512x2048.Idx → BitVec 32) :
    Host.reduceAdd (partCount g) (constant (F := Ideal) S_ .f32 0x00000000#32) reducesTo_S32x1x1_S_d0_1_2 h_S_
      = fun _ => MaskedMean.count g := by
  rw [hostSumAll]
  funext _
  exact sum_parts (slabCount g)

/-- The first output array as the host lines after the grid find it. -/
theorem arr_retrieved (c : Dev nD) :
    Pipeline.withArrays (cfgs 0).spec c (V0 m c) (fun w => (dats m 0 c).arrAt w (cfgs 0).N) (Proc.devRef .tc main_v0_0)
      = partRetrieved (V m c main_arg0) (V m c main_arg1) :=
  (Pipeline.withArrays_arr spec0 launch0.win.arr_inj c _ _ 2).trans (final2 m c)
/-- The second output array likewise. -/
theorem arr_count (c : Dev nD) :
    Pipeline.withArrays (cfgs 0).spec c (V0 m c) (fun w => (dats m 0 c).arrAt w (cfgs 0).N) (Proc.devRef .tc main_v0_1)
      = partCount (V m c main_arg1) :=
  (Pipeline.withArrays_arr spec0 launch0.win.arr_inj c _ _ 3).trans (final3 m c)

/-- THE PROGRAM'S RESULT after the host lines: the specification's result of the argument arrays. -/
theorem tail_eq (c : Dev nD) :
    Pipeline.afterTail₀ cfgs (dats m) 0 (V0 m) [hostOps1, hostOps1_1] c main_v5
      = result (m ((c : Thread nD τ).loc main_arg0)) (m ((c : Thread nD τ).loc main_arg1)) := by
  unfold Pipeline.afterTail₀
  simp only [hostOps1, hostOps1_1, List.flatten_cons, List.flatten_nil, List.append_nil, List.cons_append, List.nil_append]
  after_results
  rw [arr_retrieved, arr_count, total_retrieved, total_count]
  rfl

/-- THE RUN, READ: every weakly fair execution of the kernel's program ends with its result at the specification's
    result of the argument arrays, which are unchanged. -/
theorem run : θ_run defs (onTc (τ := τ) (main (F := Ideal))) ⟨m, fun _ => 0, ρ⟩ fun r => ∀ c : Dev nD,
      r.2.mem ((c : Thread nD τ).loc main_v5)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v5 (Pipeline.mem_restRefs_of main_v5 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Whole

end
-- ==== Proof.lean ====
/-
  The certificate of the masked-mean kernel against its reference: `Cert.Claim` (Defs.lean).

  Both programs compute, of a real array `x` and an integer array `g` of shape [32, 512, 2048], the mean over the
  positions where `g` is nonzero of the entry of `x` at the position with row 0 sent to row 1 and column 0 sent to
  column 1 — the sum of those entries divided by the number of such positions when that number is positive, 0
  otherwise (Proof/Spec.lean, `MaskedMean.result`). The kernel forms, per batch slab, the slab's sum and count
  (the remap by two rotations and selects, the sums in two stages), and the host adds the 32 partial sums and
  divides (Proof/KernelBlock.lean, KernelArrays.lean, KernelRun.lean); the reference gathers rows and columns at
  two index tables and sums everything at once (Proof/RefValue.lean). The one law between the two arrangements is
  that a finite sum of extended reals may be grouped by slabs, rows and columns in any order — addition there is
  commutative and associative with no finiteness needed (Proof/LibTotalSum.lean has the regrouping) — so the
  precondition is not used.

  The three frames are the generated frame proofs (the reference's: its generated run with the result dropped);
  the idealization rewrote nothing, so `preserves` is trivial; `algebraic` puts the two runs side by side at the
  specification's result.
-/
import proofs.«161716_j53077205844588_2_alg».proof.Defs
import proofs.«161716_j53077205844588_2_alg».proof.Proof.Gen.Kernel
import proofs.«161716_j53077205844588_2_alg».proof.Proof.Gen.Kernel.Frame
import proofs.«161716_j53077205844588_2_alg».proof.Proof.Gen.KernelIdeal
import proofs.«161716_j53077205844588_2_alg».proof.Proof.Gen.KernelIdeal.Frame
import proofs.«161716_j53077205844588_2_alg».proof.Proof.Gen.ReferenceIdeal
import proofs.«161716_j53077205844588_2_alg».proof.Proof.Gen.Pre_finite_inputs
import proofs.«161716_j53077205844588_2_alg».proof.Proof.RefRunPatched
import proofs.«161716_j53077205844588_2_alg».proof.Proof.RefReadPatched
import proofs.«161716_j53077205844588_2_alg».proof.Proof.RefValue
import proofs.«161716_j53077205844588_2_alg».proof.Proof.KernelRun

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ
/-- So does the idealized kernel. -/
theorem frame_kernelIdeal : Cert.frame_KernelIdeal := fun m ρ _ => Cert.KernelIdeal.Gen.frame m ρ
/-- So does the reference: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the specification's result of those arguments:
    the kernel's run read through its per-slab sums, the reference's through its gathers and total sums. -/
theorem algebraic : Cert.algebraic_KernelIdeal_ReferenceIdeal := by
  intro m ρ m' ρ' _ hagree
  refine ⟨fun c => Cert.MaskedMean.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v32_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
